-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S16x256x256 : Shape := ⟨3, ![16, 256, 256]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_

variable [Facts]

def fn {F : FTy → Type} [FloatOps F] (main_arg0 : FVec F S4096x8192 .f32) (main_arg1 : FVec F S16x256x256 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S16x256x256 .f32 := Host.absf main_arg1
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  main_v8
-- ==== Kernel.lean ====
abbrev S4096x8192 : Shape := ⟨2, ![4096, 8192]⟩
abbrev S16x256x256 : Shape := ⟨3, ![16, 256, 256]⟩
abbrev S1x256x256 : Shape := ⟨3, ![1, 256, 256]⟩
abbrev S256x4096 : Shape := ⟨2, ![256, 4096]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S16x256x256, .f32⟩
  | .hbm, ⟨2, _⟩ => ⟨S4096x8192, .f32⟩
  | .local _ .vmem, ⟨0, _⟩ => ⟨S1x256x256, .f32⟩
  | .local _ .vmem, ⟨1, _⟩ => ⟨S1x256x256, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S16x256x256.size a
  hwx0_0 : ∀ i : grid0.Coords, EltTy.bits .f32 = 32 ∨ (Rect.block (s := S16x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x8192.size a
  hwx0_1 : ∀ i : grid0.Coords, EltTy.bits .f32 = 32 ∨ (Rect.block (s := S4096x8192) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x8192.size a
  hwx0_2 : ∀ i : grid0.Coords, EltTy.bits .f32 = 32 ∨ (Rect.block (s := S4096x8192) S256x4096.size (cc0_transform_2 i) (hinb0_2 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_arg1) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S16x256x256 : Shape := ⟨3, ![16, 256, 256]⟩
abbrev S16x256x8192 : Shape := ⟨3, ![16, 256, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S16x256x256, .f32⟩
  | .hbm, ⟨2, _⟩ => ⟨S16x256x8192, .f32⟩
  | .hbm, ⟨3, _⟩ => ⟨S16x256x8192, .f32⟩
  | .hbm, ⟨4, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4096x8192_S16x256x8192 : S4096x8192.ShapeCasts S16x256x8192
  shapeCasts_S16x256x8192_S4096x8192 : S16x256x8192.ShapeCasts S4096x8192
  dot_S16x256x256_S16x256x8192_S16x256x8192_2_1_1_2_0_0_wf : DotDims.WF S16x256x256 S16x256x8192 S16x256x8192 [2] [1] [1] [2] [0] [0]

variable [Facts₀]

def dot_S16x256x256_S16x256x8192_S16x256x8192_2_1_1_2_0_0 : DotDims S16x256x256 S16x256x8192 S16x256x8192 where
  lhsContracting := [2]
  rhsContracting := [1]
  lhsNonContracting := [1]
  rhsNonContracting := [2]
  lhsBatch := [0]
  rhsBatch := [0]
  wf := dot_S16x256x256_S16x256x8192_S16x256x8192_2_1_1_2_0_0_wf

class Facts : Prop extends Facts₀ where

variable [Facts]
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.BlockPayload.lean ====
/-
  The kernel body's one stored value, read at an index.

  At a grid point the body holds one weight block, a 1 × 256 × 256 array `w`, and one 256 × 4096 slab `x` of the
  input. It drops the weight block's unit axis, changes both to a narrower float format — the identity on
  extended reals — and multiplies them into a zero accumulator. So the stored value at row `p`, column `q` of the
  slab is `Σ_k w[0][p][k] · x[k][q]`, the sum over `k < 256`: the row of the weight block against the column of
  the slab.
-/
import proofs.«179959_j27384711479625_2_alg».proof.Proof.Gen.KernelIdeal.Skeleton
import proofs.«179959_j27384711479625_2_alg».proof.Proof.LibPlainDot
import Idealize.ShloMosaic.Lib.Pipeline.Value

noncomputable section

namespace Cert.KernelIdeal.Payload

open Cert.KernelIdeal Cert.KernelIdeal.Gen
open Idealize.ShloMosaic Idealize.ShloMosaic.ValueIdx

/-- Dropping the leading unit axis keeps the row-major position: entry `(p, k)` of the square matrix is entry
    `(0, p, k)` of the block, both at position `256·p + k`. -/
theorem squeeze_apply (w : Vec Ideal S1x256x256 .f32) (p k : Fin 256) :
    shapeCast S256x256 w shapeCasts_S1x256x256_S256x256 (ix2 p k) = w (ix3 (0 : Fin 1) p k) :=
  shapeCast_apply w shapeCasts_S1x256x256_S256x256 (ix2 p k) (ix3 (0 : Fin 1) p k) (by
    rewrite [Shape.rowMajor_val_three, Shape.rowMajor_val_two]
    show (0 * 256 + p.val) * 256 + k.val = p.val * 256 + k.val
    omega)

/-- The stored value at `(p, q)`: the matrix product into a zero accumulator is the plain sum of products over the
    contracted axis, and the format changes in front of it are the identity. -/
theorem stored_apply (w : Vec Ideal S1x256x256 .f32) (x : Vec Ideal S256x4096 .f32) (p : Fin 256) (q : Fin 4096) :
    k0_pay1 (F := Ideal) w x (ix2 p q) = ∑ k : Fin 256, w (ix3 (0 : Fin 1) p k) * x (ix2 k q) := by
  show matmul (DotDims.plain 256 256 4096) none
      (truncf .bf16 (shapeCast S256x256 w shapeCasts_S1x256x256_S256x256) bitsLt_bf16_f32)
      (truncf .bf16 x bitsLt_bf16_f32) (constant (F := Ideal) S256x4096 .f32 0x00000000#32) (ix2 p q) = _
  refine (PlainDot.matmul_zero_apply none _ _ p q).trans ?_
  refine Finset.sum_congr rfl fun k _ => ?_
  exact congrArg (· * x (ix2 k q)) (squeeze_apply w p k)

end Cert.KernelIdeal.Payload

end
-- ==== Proof.BlockDiagSpec.lean ====
/-
  The block-diagonal product, as one function of the two argument arrays.

  The weight array holds sixteen square blocks `W[b]`, each 256 × 256; the input array has 4096 rows, read as
  sixteen consecutive bands of 256 rows. Band `b` of the result is `W[b]` times band `b` of the input: row
  `r = 256·b + p` of the result, at column `n`, is the sum over `k < 256` of `W[b][p][k] · inp[256·b + k][n]`.
  This is the product of the block-diagonal matrix `diag(W[0], …, W[15])` with the input, written without the
  zero entries off the diagonal.
-/
import Idealize.ShloMosaic.PureOps.Ideal
import Idealize.ShloMosaic.Lib.ValueIdx

noncomputable section

namespace Cert.BlockDiag

open Idealize.ShloMosaic Idealize.ShloMosaic.ValueIdx

/-- The band a row lies in: `r / 256`. -/
abbrev bandOf (r : Fin 4096) : Fin 16 := ⟨r.val / 256, by have := r.isLt; omega⟩

/-- A row's position inside its band: `r % 256`. -/
abbrev posIn (r : Fin 4096) : Fin 256 := ⟨r.val % 256, by omega⟩

/-- Row `k` of band `b`: `256·b + k`. -/
abbrev rowAt (b : Fin 16) (k : Fin 256) : Fin 4096 := ⟨b.val * 256 + k.val, by have := b.isLt; have := k.isLt; omega⟩

/-- Column `q` of column slab `s` (the 8192 columns are two slabs of 4096): `4096·s + q`. -/
abbrev colAt (s : Fin 2) (q : Fin 4096) : Fin 8192 := ⟨s.val * 4096 + q.val, by have := s.isLt; have := q.isLt; omega⟩

/-- The result's entry at row `r`, column `n`: the weight block of `r`'s band, its row at `r`'s position, against
    column `n` of that band of the input. -/
def entry (inp : (⟨2, ![4096, 8192]⟩ : Shape).Idx → EReal) (W : (⟨3, ![16, 256, 256]⟩ : Shape).Idx → EReal)
    (r : Fin 4096) (n : Fin 8192) : EReal :=
  ∑ k : Fin 256, W (ix3 (bandOf r) (posIn r) k) * inp (ix2 (rowAt (bandOf r) k) n)

/-- The whole result array. -/
def blockProduct (inp : (⟨2, ![4096, 8192]⟩ : Shape).Idx → EReal) (W : (⟨3, ![16, 256, 256]⟩ : Shape).Idx → EReal) :
    (⟨2, ![4096, 8192]⟩ : Shape).Idx → EReal :=
  fun i => entry inp W (i 0) (i 1)

theorem blockProduct_apply (inp : (⟨2, ![4096, 8192]⟩ : Shape).Idx → EReal) (W : (⟨3, ![16, 256, 256]⟩ : Shape).Idx → EReal)
    (r : Fin 4096) (n : Fin 8192) : blockProduct inp W (ix2 r n) = entry inp W r n := rfl

end Cert.BlockDiag

end
-- ==== Proof.KernelValue.lean ====
/-
  The kernel's result array is the block-diagonal product.

  The grid has 16 × 2 points. At point `(b, s)` the kernel stages weight block `b` (a 1 × 256 × 256 block of the
  weight array), the 256 × 4096 slab of the input at band `b` and column slab `s`, and writes back the slab of the
  result at the same place. The value it writes at `(p, q)` of the slab is `Σ_k W[b][p][k] · inp[256·b + k][4096·s + q]`,
  which is the block-diagonal product at row `256·b + p`, column `4096·s + q`: that row lies in band `b` at position
  `p`. So every point writes back the restriction of ONE whole-array function to its slab. The 32 slabs tile the
  4096 × 8192 result (row `r`, column `n` lies in the slab of point `(r / 256, n / 4096)`), hence the array ends
  holding that function everywhere.
-/
import proofs.«179959_j27384711479625_2_alg».proof.Proof.Gen.KernelIdeal.Value
import proofs.«179959_j27384711479625_2_alg».proof.Proof.BlockPayload
import proofs.«179959_j27384711479625_2_alg».proof.Proof.BlockDiagSpec

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx Cert.BlockDiag
open Idealize.ShloMosaic.Pipeline (Dat)

/-! ## One grid point, over plain arrays -/

/-- If `w` is weight block `b` and `x` the input slab at band `b`, column slab `s`, the body's stored value at
    `(p, q)` is the block-diagonal product at row `256·b + p`, column `4096·s + q`. -/
theorem point_value (inp : (⟨2, ![4096, 8192]⟩ : Shape).Idx → EReal) (W : (⟨3, ![16, 256, 256]⟩ : Shape).Idx → EReal)
    (w : Vec Ideal S1x256x256 .f32) (x : Vec Ideal S256x4096 .f32) (b : Fin 16) (s : Fin 2)
    (hw : ∀ p k : Fin 256, w (ix3 (0 : Fin 1) p k) = W (ix3 b p k))
    (hx : ∀ (k : Fin 256) (q : Fin 4096), x (ix2 k q) = inp (ix2 (rowAt b k) (colAt s q)))
    (p : Fin 256) (q : Fin 4096) :
    k0_pay1 (F := Ideal) w x (ix2 p q) = blockProduct inp W (ix2 (rowAt b p) (colAt s q)) := by
  rw [Payload.stored_apply, blockProduct_apply]
  unfold entry
  have hb : bandOf (rowAt b p) = b :=
    Fin.ext (by show (b.val * 256 + p.val) / 256 = b.val; have := p.isLt; omega)
  have hp : posIn (rowAt b p) = p :=
    Fin.ext (by show (b.val * 256 + p.val) % 256 = p.val; have := p.isLt; omega)
  rw [hb, hp]
  exact Finset.sum_congr rfl fun k _ => by rw [hw, hx]

/-! ## The index maps over the grid -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- At every grid point the weight window sits at block `(b, 0, 0)` and the input window at block `(b, s)`, where
    `(b, s)` is the result window's block; `b ≤ 15` and `s ≤ 1`. Decided over the 32 points. -/
theorem index_facts : ∀ t : Fin cfg0.N,
    win0_0.index t (0 : Fin 3) = win0_2.index t (0 : Fin 2)
    ∧ win0_0.index t (1 : Fin 3) = 0
    ∧ win0_0.index t (2 : Fin 3) = 0
    ∧ win0_1.index t (0 : Fin 2) = win0_2.index t (0 : Fin 2)
    ∧ win0_1.index t (1 : Fin 2) = win0_2.index t (1 : Fin 2)
    ∧ win0_2.index t (0 : Fin 2) ≤ 15
    ∧ win0_2.index t (1 : Fin 2) ≤ 1 :=
  (by decide +kernel : ∀ t : Fin grid0.N, _)

/-- Every block `(b, s)` of the result is some grid point's. -/
theorem index_onto : ∀ (b : Fin 16) (s : Fin 2), ∃ t : Fin cfg0.N, win0_2.index t = ![b.val, s.val] :=
  (by decide +kernel : ∀ (b : Fin 16) (s : Fin 2), ∃ t : Fin grid0.N, win0_2.index t = ![b.val, s.val])

variable (m : (ℓ : Loc nD τ sig) → Buf (Elt Ideal) ℓ) (ρ : Dev nD → PrngReg)

/-! ## What a point writes back -/

/-- Point `t` writes back the restriction of the block-diagonal product (of the two argument arrays as the region
    finds them) to its slab. -/
theorem flushed_eq (c : Dev nD) (t : Fin cfg0.N) :
    (dats m 0 c).flushed 2 t
      = ((cfg0.win 2).blk t).view.read (Elt Ideal) (blockProduct (V m c main_arg0) (V m c main_arg1)) := by
  rw [Value.flushed2]
  unfold out0_2
  rw [View.canon_unit_zero zeros2]
  simp only [View.ld_unit_zero (S := S1x256x256) zeros3, View.ld_unit_zero (S := S256x4096) zeros2]
  obtain ⟨e0, e1, e2, e3, e4, e5, e6⟩ := index_facts t
  have hB : win0_2.index t (0 : Fin 2) < 16 := by omega
  have hS : win0_2.index t (1 : Fin 2) < 2 := by omega
  -- the weight block is block `b` of the weight array
  have hw : ∀ p k : Fin 256, iblk m c 0 t (ix3 (0 : Fin 1) p k)
      = V m c main_arg1 (ix3 (⟨win0_2.index t (0 : Fin 2), hB⟩ : Fin 16) p k) := fun p k => by
    show V m c main_arg1 (((cfg0.win 0).blk t).view.emb (ix3 (0 : Fin 1) p k)) = _
    refine congrArg (V m c main_arg1) (funext fun a => Fin.ext ?_)
    match a with
    | ⟨0, _⟩ => show win0_0.index t (0 : Fin 3) * 1 + 1 * 0 = win0_2.index t (0 : Fin 2); omega
    | ⟨1, _⟩ => show win0_0.index t (1 : Fin 3) * 256 + 1 * p.val = p.val; omega
    | ⟨2, _⟩ => show win0_0.index t (2 : Fin 3) * 256 + 1 * k.val = k.val; omega
  -- the input slab is band `b`, column slab `s` of the input array
  have hx : ∀ (k : Fin 256) (q : Fin 4096), iblk m c 1 t (ix2 k q)
      = V m c main_arg0 (ix2 (rowAt (⟨win0_2.index t (0 : Fin 2), hB⟩ : Fin 16) k)
          (colAt (⟨win0_2.index t (1 : Fin 2), hS⟩ : Fin 2) q)) := fun k q => by
    show V m c main_arg0 (((cfg0.win 1).blk t).view.emb (ix2 k q)) = _
    refine congrArg (V m c main_arg0) (funext fun a => Fin.ext ?_)
    match a with
    | ⟨0, _⟩ => show win0_1.index t (0 : Fin 2) * 256 + 1 * k.val = win0_2.index t (0 : Fin 2) * 256 + k.val; omega
    | ⟨1, _⟩ => show win0_1.index t (1 : Fin 2) * 4096 + 1 * q.val = win0_2.index t (1 : Fin 2) * 4096 + q.val; omega
  funext j
  have hj := eq_ix2 (n0 := 256) (n1 := 4096) j
  -- the slab's index `j` sits at row `256·b + j₀`, column `4096·s + j₁` of the result
  have hemb : ((cfg0.win 2).blk t).view.emb j
      = ix2 (rowAt (⟨win0_2.index t (0 : Fin 2), hB⟩ : Fin 16) (j 0)) (colAt (⟨win0_2.index t (1 : Fin 2), hS⟩ : Fin 2) (j 1)) :=
    funext fun a => Fin.ext (by
      match a with
      | ⟨0, _⟩ => show win0_2.index t (0 : Fin 2) * 256 + 1 * (j 0).val = win0_2.index t (0 : Fin 2) * 256 + (j 0).val; omega
      | ⟨1, _⟩ => show win0_2.index t (1 : Fin 2) * 4096 + 1 * (j 1).val = win0_2.index t (1 : Fin 2) * 4096 + (j 1).val; omega)
  show k0_pay1 (F := Ideal) (iblk m c 0 t) (iblk m c 1 t) j
    = blockProduct (V m c main_arg0) (V m c main_arg1) (((cfg0.win 2).blk t).view.emb j)
  refine ((congrArg (k0_pay1 (F := Ideal) (iblk m c 0 t) (iblk m c 1 t)) hj).trans ?_).trans
    (congrArg (blockProduct (V m c main_arg0) (V m c main_arg1)) hemb).symm
  exact point_value (V m c main_arg0) (V m c main_arg1) (iblk m c 0 t) (iblk m c 1 t)
    ⟨win0_2.index t (0 : Fin 2), hB⟩ ⟨win0_2.index t (1 : Fin 2), hS⟩ hw hx (j 0) (j 1)

/-! ## The slabs tile the result -/

/-- An index of the result is in point `t`'s slab iff each coordinate is in the slab's range on its axis. -/
theorem mem_slab (t : Fin cfg0.N) (i : S4096x8192.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v0).slice (win0_2.rect t)).set ↔ _
  rw [View.set_slice_whole, Rect.mem_set_unit]
  exact Iff.rfl

/-- Row `r`, column `n` lies in the slab of the point whose block is `(r / 256, n / 4096)`. -/
theorem cover (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := index_onto ⟨(i 0).val / 256, by omega⟩ ⟨(i 1).val / 4096, by omega⟩
  have q0 : win0_2.index t (0 : Fin 2) = (i 0).val / 256 := congrFun ht 0
  have q1 : win0_2.index t (1 : Fin 2) = (i 1).val / 4096 := congrFun ht 1
  refine ⟨t, flush0_2 t, ?_⟩
  rw [mem_slab]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 4096 ≤ (i 1).val ∧ (i 1).val < win0_2.index t (1 : Fin 2) * 4096 + 4096
    omega

/-! ## The array after the run, and the run -/

/-- After the run the result array is the block-diagonal product of the two arguments as launched. -/
theorem final (c : Dev nD) :
    (dats m 0 c).arrAt 2 cfg0.N
      = blockProduct (m ((c : Thread nD τ).loc main_arg0)) (m ((c : Thread nD τ).loc main_arg1)) :=
  (dats m 0 c).arrAt_eq_of_cover 2 (blockProduct (V m c main_arg0) (V m c main_arg1))
    (fun t _ => flushed_eq m c t) cover

/-- Every weakly fair execution of the kernel's program terminates with the result array at the block-diagonal
    product of the arguments and the arguments unchanged. -/
theorem run : θ_run defs (onTc (τ := τ) (main (F := Ideal))) ⟨m, fun _ => 0, ρ⟩ fun r => ∀ c : Dev nD,
      r.2.mem ((c : Thread nD τ).loc main_v0)
        = blockProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceValue.lean ====
/-
  The reference computes the block-diagonal product.

  The reference views the 4096 × 8192 input as sixteen bands of 256 rows, `x[b][j][n] = inp[256·b + j][n]`,
  contracts each weight block with its band, `y[b][p][n] = Σ_k W[b][p][k] · x[b][k][n]`, and lays the sixteen
  results back as 4096 rows, `out[r][n] = y[r / 256][r % 256][n]`. Read at row `r`, column `n`, the three steps
  compose to `Σ_k W[r / 256][r % 256][k] · inp[256·(r / 256) + k][n]`: the two reshapes are row-major, so they only
  rename a row `r` as the pair (band, position) and back, and the contraction in between is a sum over `k < 256`
  of products, left factor the weight. No law of arithmetic is used beyond reading each index.
-/
import proofs.«179959_j27384711479625_2_alg».proof.Proof.Gen.ReferenceIdeal.Read
import proofs.«179959_j27384711479625_2_alg».proof.Proof.BlockDiagSpec

noncomputable section

namespace Cert.ReferenceIdeal.RefValue

open Cert.ReferenceIdeal Cert.ReferenceIdeal.Gen Cert.ReferenceIdeal.Read
open Idealize.ShloMosaic Idealize.ShloMosaic.ValueIdx Cert.BlockDiag

/-- The weight entry the contraction reads for the result's row `r` at step `k`: block `r / 256`, row `r % 256`,
    column `k`. (Row `r`, column `n` sits at row-major position `8192·r + n`; with `n < 8192` its band is
    `(8192·r + n) / (256·8192) = r / 256` and its position `((8192·r + n) / 8192) % 256 = r % 256`.) -/
theorem weight_index (r : Fin 4096) (n : Fin 8192) (k : Fin 256) :
    lidx_main_v1 (idx_main_v2 (ix2 r n)) k = ix3 (bandOf r) (posIn r) k :=
  funext fun a => Fin.ext (by
    have hr : r.val < 4096 := r.isLt
    have hn : n.val < 8192 := n.isLt
    match a with
    | ⟨0, _⟩ => show (r.val * 8192 + n.val) / 2097152 = r.val / 256; omega
    | ⟨1, _⟩ => show (r.val * 8192 + n.val) / 8192 % 256 = r.val % 256; omega
    | ⟨2, _⟩ => rfl)

/-- The input entry it reads there: row `256·(r / 256) + k`, column `n` — the band's row `k`, taken back through
    the first reshape. -/
theorem input_index (r : Fin 4096) (n : Fin 8192) (k : Fin 256) :
    idx_main_v0 (ridx_main_v1 (idx_main_v2 (ix2 r n)) k) = ix2 (rowAt (bandOf r) k) n :=
  funext fun a => Fin.ext (by
    have hr : r.val < 4096 := r.isLt
    have hn : n.val < 8192 := n.isLt
    have hk : k.val < 256 := k.isLt
    match a with
    | ⟨0, _⟩ =>
      show (((r.val * 8192 + n.val) / 2097152 * 256 + k.val) * 8192 + (r.val * 8192 + n.val) % 8192) / 8192
        = r.val / 256 * 256 + k.val
      omega
    | ⟨1, _⟩ =>
      show (((r.val * 8192 + n.val) / 2097152 * 256 + k.val) * 8192 + (r.val * 8192 + n.val) % 8192) % 8192 = n.val
      omega)

/-- The reference's result, as a function of its two arguments, is the block-diagonal product. -/
theorem reference_eq (x0 : (⟨S4096x8192, .f32⟩ : BufTy).Contents (Elt Ideal))
    (x1 : (⟨S16x256x256, .f32⟩ : BufTy).Contents (Elt Ideal)) :
    val_main_v2 (F := Ideal) x0 x1 = blockProduct x0 x1 := by
  funext i
  obtain ⟨r, n, rfl⟩ : ∃ (r : Fin 4096) (n : Fin 8192), i = ix2 r n := ⟨i 0, i 1, eq_ix2 i⟩
  rw [val_main_v2_apply, val_main_v1_apply, blockProduct_apply]
  refine Finset.sum_congr rfl fun k _ => ?_
  rw [val_main_v0_apply, weight_index, input_index]

end Cert.ReferenceIdeal.RefValue

end
-- ==== Proof.lean ====
/-
  A block-diagonal linear map: sixteen 256 × 256 weight blocks `W[b]` applied to the sixteen 256-row bands of a
  4096 × 8192 input, `out[256·b + p][n] = Σ_k W[b][p][k] · inp[256·b + k][n]`.

  The kernel walks a 16 × 2 grid: at point `(b, s)` it multiplies weight block `b` with the 256 × 4096 slab of the
  input at band `b`, column slab `s`, into a zero accumulator and writes the product to the same slab of the result;
  the changes of float format in front of the product are the identity on extended reals. The reference views the
  input as sixteen bands, contracts each band with its weight block in one batched product, and lays the bands back
  as rows. Over the extended reals both are, entry by entry, the same sum of the same 256 products in the same
  order of factors, so no law of arithmetic is needed to join them and the finiteness of the inputs is never used:
  the kernel's side is `KernelValue.lean` (each point writes the restriction of one whole-array function to its
  slab, and the 32 slabs tile the result), the reference's side is `ReferenceValue.lean` (the two row-major
  reshapes rename a row as band and position and back), and `BlockDiagSpec.lean` is the function they meet at.

  The three frames — each program terminates without a fault and leaves its arguments unchanged — are the
  generated frame proofs of the two kernel programs and, for the reference, its run with the result forgotten.
  The idealized kernel is the kernel's own text read over the extended reals (no operation was rewritten), so
  there is nothing to preserve.
-/
import proofs.«179959_j27384711479625_2_alg».proof.Defs
import proofs.«179959_j27384711479625_2_alg».proof.Proof.Gen.Kernel
import proofs.«179959_j27384711479625_2_alg».proof.Proof.Gen.Kernel.Skeleton
import proofs.«179959_j27384711479625_2_alg».proof.Proof.Gen.Kernel.Launch
import proofs.«179959_j27384711479625_2_alg».proof.Proof.Gen.Kernel.Points
import proofs.«179959_j27384711479625_2_alg».proof.Proof.Gen.Kernel.Frame
import proofs.«179959_j27384711479625_2_alg».proof.Proof.Gen.KernelIdeal
import proofs.«179959_j27384711479625_2_alg».proof.Proof.Gen.KernelIdeal.Skeleton
import proofs.«179959_j27384711479625_2_alg».proof.Proof.Gen.KernelIdeal.Launch
import proofs.«179959_j27384711479625_2_alg».proof.Proof.Gen.KernelIdeal.Points
import proofs.«179959_j27384711479625_2_alg».proof.Proof.Gen.KernelIdeal.Frame
import proofs.«179959_j27384711479625_2_alg».proof.Proof.Gen.ReferenceIdeal
import proofs.«179959_j27384711479625_2_alg».proof.Proof.Gen.KernelIdeal.Value
import proofs.«179959_j27384711479625_2_alg».proof.Proof.Gen.ReferenceIdeal.Run
import proofs.«179959_j27384711479625_2_alg».proof.Proof.Gen.ReferenceIdeal.Read
import proofs.«179959_j27384711479625_2_alg».proof.Proof.Gen.Pre_finite_inputs
import proofs.«179959_j27384711479625_2_alg».proof.Proof.KernelValue
import proofs.«179959_j27384711479625_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, the kernel's result array and the reference's both end at the
    block-diagonal product of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
